-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) (main_arg1 : FVec F S2x2048x1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Kernel.lean ====
abbrev S2x2048x1024 : Shape := ⟨3, ![2, 2048, 1024]⟩
abbrev S2x2048x16x64 : Shape := ⟨4, ![2, 2048, 16, 64]⟩
abbrev S1x256x8x64 : Shape := ⟨4, ![1, 256, 8, 64]⟩
abbrev S1x2048x8x64 : Shape := ⟨4, ![1, 2048, 8, 64]⟩
abbrev S1x256x1x64 : Shape := ⟨4, ![1, 256, 1, 64]⟩
abbrev S256x64 : Shape := ⟨2, ![256, 64]⟩
abbrev S1x2048x1x64 : Shape := ⟨4, ![1, 2048, 1, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x16x64, .f32⟩
  | .hbm, ⟨4, _⟩ => ⟨S2x2048x16x64, .f32⟩
  | .hbm, ⟨5, _⟩ => ⟨S2x2048x16x64, .f32⟩
  | .hbm, ⟨6, _⟩ => ⟨S2x2048x16x64, .f32⟩
  | .hbm, ⟨7, _⟩ => ⟨S2x2048x1024, .f32⟩
  | .local _ .vmem, ⟨0, _⟩ => ⟨S1x256x8x64, .f32⟩
  | .local _ .vmem, ⟨1, _⟩ => ⟨S1x256x8x64, .f32⟩
  | .local _ .vmem, ⟨2, _⟩ => ⟨S1x2048x8x64, .f32⟩
  | .local _ .vmem, ⟨3, _⟩ => ⟨S1x2048x8x64, .f32⟩
  | .local _ .vmem, ⟨4, _⟩ => ⟨S1x256x8x64, .f32⟩
  | .local _ .vmem, ⟨5, _⟩ => ⟨S1x256x8x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x256x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x2048x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x2048x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S2x2048x1024_S2x2048x16x64 : S2x2048x1024.ShapeCasts S2x2048x16x64
  inb_S1x256x8x64_S1x256x1x64_0_0_0_0 : ∀ a, (![0, 0, 0, 0] : Fin 4 → Nat) a + S1x256x1x64.size a ≤ S1x256x8x64.size a
  h_S1x256x1x64 : 0 < S1x256x1x64.numel
  shapeCasts_S1x256x1x64_S256x64 : S1x256x1x64.ShapeCasts S256x64
  bitsLt_bf16_f32 : FTy.bits .bf16 < FTy.bits .f32
  inb_S1x2048x8x64_S1x2048x1x64_0_0_0_0 : ∀ a, (![0, 0, 0, 0] : Fin 4 → Nat) a + S1x2048x1x64.size a ≤ S1x2048x8x64.size a
  h_S1x2048x1x64 : 0 < S1x2048x1x64.numel
  shapeCasts_S1x2048x1x64_S2048x64 : S1x2048x1x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x256x1x64 : S256x64.ShapeCasts S1x256x1x64
  inb_S1x256x8x64_S1x256x1x64_0_0_1_0 : ∀ a, (![0, 0, 1, 0] : Fin 4 → Nat) a + S1x256x1x64.size a ≤ S1x256x8x64.size a
  inb_S1x2048x8x64_S1x2048x1x64_0_0_1_0 : ∀ a, (![0, 0, 1, 0] : Fin 4 → Nat) a + S1x2048x1x64.size a ≤ S1x2048x8x64.size a
  inb_S1x256x8x64_S1x256x1x64_0_0_2_0 : ∀ a, (![0, 0, 2, 0] : Fin 4 → Nat) a + S1x256x1x64.size a ≤ S1x256x8x64.size a
  inb_S1x2048x8x64_S1x2048x1x64_0_0_2_0 : ∀ a, (![0, 0, 2, 0] : Fin 4 → Nat) a + S1x2048x1x64.size a ≤ S1x2048x8x64.size a
  inb_S1x256x8x64_S1x256x1x64_0_0_3_0 : ∀ a, (![0, 0, 3, 0] : Fin 4 → Nat) a + S1x256x1x64.size a ≤ S1x256x8x64.size a
  inb_S1x2048x8x64_S1x2048x1x64_0_0_3_0 : ∀ a, (![0, 0, 3, 0] : Fin 4 → Nat) a + S1x2048x1x64.size a ≤ S1x2048x8x64.size a
  inb_S1x256x8x64_S1x256x1x64_0_0_4_0 : ∀ a, (![0, 0, 4, 0] : Fin 4 → Nat) a + S1x256x1x64.size a ≤ S1x256x8x64.size a
  inb_S1x2048x8x64_S1x2048x1x64_0_0_4_0 : ∀ a, (![0, 0, 4, 0] : Fin 4 → Nat) a + S1x2048x1x64.size a ≤ S1x2048x8x64.size a
  inb_S1x256x8x64_S1x256x1x64_0_0_5_0 : ∀ a, (![0, 0, 5, 0] : Fin 4 → Nat) a + S1x256x1x64.size a ≤ S1x256x8x64.size a
  inb_S1x2048x8x64_S1x2048x1x64_0_0_5_0 : ∀ a, (![0, 0, 5, 0] : Fin 4 → Nat) a + S1x2048x1x64.size a ≤ S1x2048x8x64.size a
  inb_S1x256x8x64_S1x256x1x64_0_0_6_0 : ∀ a, (![0, 0, 6, 0] : Fin 4 → Nat) a + S1x256x1x64.size a ≤ S1x256x8x64.size a
  inb_S1x2048x8x64_S1x2048x1x64_0_0_6_0 : ∀ a, (![0, 0, 6, 0] : Fin 4 → Nat) a + S1x2048x1x64.size a ≤ S1x2048x8x64.size a
  inb_S1x256x8x64_S1x256x1x64_0_0_7_0 : ∀ a, (![0, 0, 7, 0] : Fin 4 → Nat) a + S1x256x1x64.size a ≤ S1x256x8x64.size a
  inb_S1x2048x8x64_S1x2048x1x64_0_0_7_0 : ∀ a, (![0, 0, 7, 0] : Fin 4 → Nat) a + S1x2048x1x64.size a ≤ S1x2048x8x64.size a
  shapeCasts_S2x2048x16x64_S2x2048x1024 : S2x2048x16x64.ShapeCasts S2x2048x1024
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x64.size a ≤ S2x2048x16x64.size a
  hwx0_0 : ∀ i : grid0.Coords, EltTy.bits .f32 = 32 ∨ (Rect.block (s := S2x2048x16x64) S1x256x8x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x8x64.size a ≤ S2x2048x16x64.size a
  hwx0_1 : ∀ i : grid0.Coords, EltTy.bits .f32 = 32 ∨ (Rect.block (s := S2x2048x16x64) S1x2048x8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x8x64.size a ≤ S2x2048x16x64.size a
  hwx0_2 : ∀ i : grid0.Coords, EltTy.bits .f32 = 32 ∨ (Rect.block (s := S2x2048x16x64) S1x2048x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x8x64.size a ≤ S2x2048x16x64.size a
  hwx0_3 : ∀ i : grid0.Coords, EltTy.bits .f32 = 32 ∨ (Rect.block (s := S2x2048x16x64) S1x256x8x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x16x64, .f32⟩
  | .hbm, ⟨4, _⟩ => ⟨S2x16x2048x64, .f32⟩
  | .hbm, ⟨5, _⟩ => ⟨S2x2048x16x64, .f32⟩
  | .hbm, ⟨6, _⟩ => ⟨S2x16x2048x64, .f32⟩
  | .hbm, ⟨7, _⟩ => ⟨S2x2048x16x64, .f32⟩
  | .hbm, ⟨8, _⟩ => ⟨S2x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with several heads, index by index over the extended reals.

  The three argument arrays are `[2, 2048, 1024]`: batch, sequence position, and a minor axis of 1024 = 16 heads of 64
  lanes each, head `h` owning columns `64 h … 64 h + 63`. For batch `b`, head `h`, query position `s` and key
  position `t` the score is the inner product over the head's 64 lanes of the query row, scaled by one eighth, with
  the key row. The weights of a query are the softmax of its scores over all key positions, computed as `exp` of the
  score minus the row's maximum, divided by the sum of those exponentials. The result at lane `e` of head `h` is the
  weighted sum of the value rows' entries in that column.

  Also here: the two ways of spelling the scale agree. One eighth is `1 / sqrt 64`; and scaling every query entry
  before the inner product is scaling the inner product afterwards, because multiplication by a nonnegative real
  distributes over every sum of extended reals, infinite terms included.
-/
import Idealize.ShloMosaic.PureOps.Ideal
import Idealize.ShloMosaic.Lib.ValueIdx

noncomputable section

open scoped BigOperators

namespace Cert.AttnSpec

open Idealize.ShloMosaic Idealize.ShloMosaic.ValueIdx

/-! ## The constants -/

/-- The binary32 word `0x3E000000` denotes one eighth. -/
theorem ofBits_eighth : Ideal.ofBits .f32 0x3E000000#32 = ((1 / 8 : ℝ) : EReal) := by
  simp [Ideal.ofBits, Ideal.ieee, -EReal.coe_mul]; norm_num

/-- The binary32 word `0x42800000` denotes sixty-four. -/
theorem ofBits_64 : Ideal.ofBits .f32 0x42800000#32 = ((64 : ℝ) : EReal) := by
  simp [Ideal.ofBits, Ideal.ieee, -EReal.coe_mul]; norm_num

/-- The binary32 word `0x3F800000` denotes one. -/
theorem ofBits_one : Ideal.ofBits .f32 0x3F800000#32 = 1 := by
  simp [Ideal.ofBits, Ideal.ieee, -EReal.coe_mul]; norm_num

/-- The binary32 word of negative infinity denotes `⊥`. -/
theorem ofBits_neg_inf : Ideal.ofBits .f32 0xFF800000#32 = ⊥ := by
  simp [Ideal.ofBits, Ideal.ieee]

/-- The square root of sixty-four is eight. -/
theorem sqrt_64 : Real.sqrt 64 = 8 := by
  rw [show (64 : ℝ) = 8 ^ 2 by norm_num]
  exact Real.sqrt_sq (by norm_num)

/-- One divided by the square root of sixty-four is one eighth: the scale spelt as a quotient is the scale spelt as
    a literal. -/
theorem one_div_sqrt_64 :
    Ideal.div (Ideal.ofBits .f32 0x3F800000#32) (Ideal.sqrt (Ideal.ofBits .f32 0x42800000#32))
      = Ideal.ofBits .f32 0x3E000000#32 := by
  rw [ofBits_64, ofBits_one, ofBits_eighth, Ideal.sqrt_coe, if_neg (by norm_num), sqrt_64,
    Ideal.div_coe (by norm_num : (8 : ℝ) ≠ 0), one_mul]

/-! ## Scaling an inner product -/

/-- Multiplication by a nonnegative real distributes over a finite sum of extended reals. -/
theorem sum_mul_coe {ι : Type*} (s : Finset ι) (z : ι → EReal) (c : ℝ) (hc : 0 ≤ c) :
    ∑ d ∈ s, z d * (c : EReal) = (∑ d ∈ s, z d) * (c : EReal) := by
  classical
  induction s using Finset.induction_on with
  | empty => rw [Finset.sum_empty, Finset.sum_empty, zero_mul]
  | insert a s ha ih =>
    rw [Finset.sum_insert ha, Finset.sum_insert ha, ih,
      EReal.right_distrib_of_nonneg_of_ne_top (EReal.coe_nonneg.mpr hc) (EReal.coe_ne_top c)]

/-- Scaling each left factor of an inner product by one eighth scales the inner product by one eighth. -/
theorem sum_scaled {n : ℕ} (x y : Fin n → EReal) :
    ∑ d : Fin n, (x d * Ideal.ofBits .f32 0x3E000000#32) * y d
      = (∑ d : Fin n, x d * y d) * Ideal.ofBits .f32 0x3E000000#32 := by
  rw [ofBits_eighth, ← sum_mul_coe _ _ _ (by norm_num)]
  exact Finset.sum_congr rfl fun d _ => mul_right_comm _ _ _

/-! ## The specification -/

/-- The softmax of the scores `σ` over their index set, as weights of the entries `w`: the sum over `t` of
    `exp (σ t - M) / ∑ u, exp (σ u - M)` times `w t`, `M` the maximum of the scores (the fold of `max` from `⊥`). -/
def softmaxDot {n : ℕ} (σ w : Fin n → EReal) : EReal :=
  ∑ t : Fin n, Ideal.div (Ideal.exp (σ t - (Finset.univ : Finset (Fin n)).fold max ⊥ σ))
      (∑ u : Fin n, Ideal.exp (σ u - (Finset.univ : Finset (Fin n)).fold max ⊥ σ)) * w t

/-- The argument and result arrays: batch, position, 16 heads of 64 lanes. -/
abbrev Arr : Type := (⟨3, ![2, 2048, 1024]⟩ : Shape).Idx → EReal

/-- Lane `d` of head `h` is column `64 h + d` of the minor axis. -/
abbrev col (h : Fin 16) (d : Fin 64) : Fin 1024 := ⟨h.val * 64 + d.val, by omega⟩

/-- The score of query position `s` against key position `t` in head `h` of batch `b`: the head's lanes of the
    query row, each scaled by one eighth, against the key row's. -/
def score (Q K : Arr) (b : Fin 2) (h : Fin 16) (s t : Fin 2048) : EReal :=
  ∑ d : Fin 64, (Q (ix3 b s (col h d)) * Ideal.ofBits .f32 0x3E000000#32) * K (ix3 b t (col h d))

/-- The same score with the scale applied after the inner product. -/
theorem score_eq (Q K : Arr) (b : Fin 2) (h : Fin 16) (s t : Fin 2048) :
    score Q K b h s t
      = (∑ d : Fin 64, Q (ix3 b s (col h d)) * K (ix3 b t (col h d))) * Ideal.ofBits .f32 0x3E000000#32 :=
  sum_scaled _ _

/-- Attention at batch `b`, position `s`, head `h`, lane `e`. -/
def attn4 (Q K V : Arr) (b : Fin 2) (s : Fin 2048) (h : Fin 16) (e : Fin 64) : EReal :=
  softmaxDot (fun t => score Q K b h s t) (fun t => V (ix3 b t (col h e)))

/-- The head and the lane of a column of the minor axis. -/
abbrev headOf (j : Fin 1024) : Fin 16 := ⟨j.val / 64, by omega⟩
abbrev laneOf (j : Fin 1024) : Fin 64 := ⟨j.val % 64, by omega⟩

/-- Attention as one function of the three arrays, index by index. -/
def attn (Q K V : Arr) : Arr := fun i => attn4 Q K V (i 0) (i 1) (headOf (i 2)) (laneOf (i 2))

/-- At the column of head `h` and lane `e`. -/
theorem attn_apply (Q K V : Arr) (b : Fin 2) (s : Fin 2048) (h : Fin 16) (e : Fin 64) :
    attn Q K V (ix3 b s (col h e)) = attn4 Q K V b s h e := by
  have hh : headOf (col h e) = h := Fin.ext (by show (h.val * 64 + e.val) / 64 = h.val; omega)
  have he : laneOf (col h e) = e := Fin.ext (by show (h.val * 64 + e.val) % 64 = e.val; omega)
  show attn4 Q K V b s (headOf (col h e)) (laneOf (col h e)) = _
  rw [hh, he]

end Cert.AttnSpec

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibRowReduce.lean ====
/-
  Row reductions of a matrix, kept as a column and repeated along the lanes, read at an entry; and a select on an
  integer comparison with zero read as an `if`. These are the pieces of a masked softmax along rows: the maximum of a
  row (a fold of `max` from `-∞`, the value of the accumulator word `0xFF800000`), the sum of a row, each
  broadcast back to the matrix's shape, so that at the entry `(p, c)` one reads the reduction of row `p`. General in
  the extents, at the ideal values, where a float is an extended real.
-/
import proofs.«119856_j56710748176493_2_alg».proof.Proof.LibKernelIdx
import Idealize.ShloMosaic.Lib.Affine

noncomputable section

open scoped BigOperators

namespace Cert.LibRowReduce

open Idealize.ShloMosaic Idealize.ShloMosaic.ValueIdx

/-- The binary32 word of negative infinity denotes `⊥`. -/
theorem ofBits_neg_inf_f32 : Ideal.ofBits .f32 0xFF800000#32 = ⊥ := by
  simp [Ideal.ofBits, Ideal.ieee]

/-- The maximum of an `[a, b]` matrix along its second axis, read at row `p`, is the fold of `max` from `⊥` over that
    row's entries. The accumulator's side condition is typed as a program spells it, an equation between two words. -/
theorem laneMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ v 0xFF800000#32 h hφ hacc (ix1 p)
      = (Finset.univ : Finset (Fin b)).fold max ⊥ (fun k => v (ix2 p k)) := by
  refine (Ideal.multiReduction_maximumf_single v 0xFF800000#32 h hφ hacc (ix1 p)).trans ?_
  have e : (v ∘ h.lift (ix1 p) : Fin b → EReal) = fun k => v (ix2 p k) :=
    funext fun k => congrArg v (funext fun ax => Fin.ext (match ax with | ⟨0, _⟩ => rfl | ⟨1, _⟩ => rfl))
  show (Finset.univ : Finset (Fin b)).fold max (Ideal.ofBits .f32 0xFF800000#32) (v ∘ h.lift (ix1 p)) = _
  rw [ofBits_neg_inf_f32]
  exact congrArg (fun f : Fin b → EReal => (Finset.univ : Finset (Fin b)).fold max ⊥ f) e

/-- The row maximum kept as a column and repeated along the lanes: at `(p, c)` the maximum of row `p`. -/
theorem keepdimsMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .maximumf [1] ⟨1, ![a]⟩ v 0xFF800000#32 h hφ hacc) hc) hb (ix2 p c)
      = (Finset.univ : Finset (Fin b)).fold max ⊥ (fun k => v (ix2 p k)) :=
  (Cert.LibKernelIdx.broadcastTo_a1_ab_apply _ hb p c (0 : Fin 1)).trans
    ((Cert.LibKernelIdx.shapeCast_a_a1_apply _ hc p (0 : Fin 1)).trans (laneMax_apply v h hφ hacc p))

/-- The row sum kept as a column and repeated along the lanes: at `(p, c)` the sum of row `p`. -/
theorem keepdimsSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .add [1] ⟨1, ![a]⟩ v 0x00000000#32 h hφ hacc) hc) hb (ix2 p c)
      = ∑ k : Fin b, v (ix2 p k) :=
  (Cert.LibKernelIdx.broadcastTo_a1_ab_apply _ hb p c (0 : Fin 1)).trans
    ((Cert.LibKernelIdx.shapeCast_a_a1_apply _ hc p (0 : Fin 1)).trans (Cert.LibKernelIdx.laneSum_apply v h hφ hacc p))

/-- A select on "the word is not zero" is an `if` on that inequality. -/
theorem select_ne_zero {α : Type} {w : ℕ} (x : BitVec w) (y z : α) :
    Scalar.select (IntOp.cmpi .ne x 0#w) y z = if x ≠ 0#w then y else z :=
  if_congr IntOp.cmpi_ne rfl rfl

/-- A vector select whose condition, at the index, is "the word `x` is not zero" and whose two operands have the named
    values there: an `if` on the inequality between the two values. -/
theorem select_ne_zero_of_eq {α : Type} {s : Shape} {w : ℕ} (c : IVec s 1) (u t : s.Idx → α) (i : s.Idx)
    (x : BitVec w) (y z : α) (hc : c i = IntOp.cmpi .ne x 0#w) (hu : u i = y) (ht : t i = z) :
    select c u t i = if x ≠ 0#w then y else z := by
  show Scalar.select (c i) (u i) (t i) = _
  rw [hc, hu, ht]
  exact select_ne_zero x y z

/-! ## A masked softmax along the rows, at an entry -/

/-- The masked softmax of a matrix `s` along its rows, rounded to the narrower format (at the ideal values: left as it
    is), read at the entry `(p, j)`. With `σ k` the entry `(p, k)` of `s` and `M` the maximum of row `p` (the fold of
    `max` from `⊥` over `σ`), the entry is, where the mask word `cj` is set, the quotient of `exp (σ j - M)` by the sum
    over the row of `exp (σ k - M)`, and zero elsewhere. The row's values and the mask's word are named by the caller
    (`hs`, `hcj`), so that they can be whatever the caller has read them to be. -/
theorem maskedSoftmax_apply {a b : ℕ} (s : FVec Ideal ⟨2, ![a, b]⟩ .f32) (c : IVec ⟨2, ![a, b]⟩ 1)
    (h : (⟨2, ![a, b]⟩ : Shape).Reduces [1] ⟨1, ![a]⟩) (hφ : FKind.Formats .f32)
    (haccM : (0xFF800000#32 : BitVec 32) = 0xFF800000#32) (haccS : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (hlt : FTy.bits .bf16 < FTy.bits .f32) (p : Fin a) (j : Fin b)
    (σ : Fin b → EReal) (cj : BitVec 1) (hs : ∀ k, s (ix2 p k) = σ k) (hcj : c (ix2 p j) = cj) :
    (truncf .bf16
      (select c
        (divf
          (Idealize.ShloMosaic.exp (subf s (broadcastTo ⟨2, ![a, b]⟩
            (shapeCast ⟨2, ![a, 1]⟩ (multiReduction (F := Ideal) .maximumf [1] ⟨1, ![a]⟩ s 0xFF800000#32 h hφ haccM) hc) hb)))
          (broadcastTo ⟨2, ![a, b]⟩
            (shapeCast ⟨2, ![a, 1]⟩ (multiReduction (F := Ideal) .add [1] ⟨1, ![a]⟩
              (Idealize.ShloMosaic.exp (subf s (broadcastTo ⟨2, ![a, b]⟩
                (shapeCast ⟨2, ![a, 1]⟩ (multiReduction (F := Ideal) .maximumf [1] ⟨1, ![a]⟩ s 0xFF800000#32 h hφ haccM) hc) hb)))
              0x00000000#32 h hφ haccS) hc) hb))
        (broadcast ⟨2, ![a, b]⟩ (Scalar.ofBits (F := Ideal) .f32 0x00000000#32))) hlt : FVec Ideal ⟨2, ![a, b]⟩ .bf16) (ix2 p j)
      = Scalar.select cj
          (Ideal.div (Ideal.exp (σ j - (Finset.univ : Finset (Fin b)).fold max ⊥ σ))
            (∑ k : Fin b, Ideal.exp (σ k - (Finset.univ : Finset (Fin b)).fold max ⊥ σ)))
          0 := by
  have hM : ∀ k : Fin b, broadcastTo ⟨2, ![a, b]⟩
      (shapeCast ⟨2, ![a, 1]⟩ (multiReduction (F := Ideal) .maximumf [1] ⟨1, ![a]⟩ s 0xFF800000#32 h hφ haccM) hc) hb (ix2 p k)
      = (Finset.univ : Finset (Fin b)).fold max ⊥ σ := fun k =>
    (keepdimsMax_apply s h hφ haccM hc hb p k).trans
      (congrArg (fun f : Fin b → EReal => (Finset.univ : Finset (Fin b)).fold max ⊥ f) (funext hs))
  have hE : ∀ k : Fin b, Idealize.ShloMosaic.exp (subf s (broadcastTo ⟨2, ![a, b]⟩
      (shapeCast ⟨2, ![a, 1]⟩ (multiReduction (F := Ideal) .maximumf [1] ⟨1, ![a]⟩ s 0xFF800000#32 h hφ haccM) hc) hb)) (ix2 p k)
      = Ideal.exp (σ k - (Finset.univ : Finset (Fin b)).fold max ⊥ σ) := fun k =>
    congrArg Ideal.exp (congrArg₂ (· - ·) (hs k) (hM k))
  refine (congrArg₂ (fun (w : BitVec 1) (x : EReal) => Scalar.select w x (Ideal.ofBits .f32 0x00000000#32)) hcj
    (congrArg₂ Ideal.div (hE j) ((keepdimsSum_apply _ h hφ haccS hc hb p j).trans
      (Finset.sum_congr rfl fun k _ => hE k)))).trans ?_
  exact congrArg (Scalar.select cj _) Ideal.ofBits_zero_f32

end Cert.LibRowReduce

end
-- ==== Proof.LibMatmulRows.lean ====
/-
  A matrix product that contracts the SECOND axis of both operands, an `[m, k]` matrix with the transpose of an
  `[n, k]` one, accumulated into the zero splat and read at an entry at the ideal values: entry `(p, j)` is the
  inner product of row `p` of the left operand with row `j` of the right one. General in the extents.
-/
import Idealize.ShloMosaic.Lib.Pipeline.Value
import Idealize.ShloMosaic.Lib.ValueIdx
import Idealize.ShloMosaic.PureOps.Ideal.Laws

noncomputable section

open scoped BigOperators

namespace Cert.LibMatmulRows

open Idealize.ShloMosaic Idealize.ShloMosaic.ValueIdx

variable {m k n : ℕ}

/-- The dimension numbers: each operand's second axis contracted, its first kept, no batch axes. -/
abbrev rowsDims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

variable (w : DotDims.WF ⟨2, ![m, k]⟩ ⟨2, ![n, k]⟩ ⟨2, ![m, n]⟩ [1] [1] [0] [0] [] [])

/-- The left operand is read in the row the result's first coordinate names, -/
theorem lhs_row (i : (⟨2, ![m, n]⟩ : Shape).Idx) (q : (rowsDims w).contr.Idx) :
    ((rowsDims w).lhsIdx i q 0).val = (i 0).val := by
  unfold DotDims.lhsIdx
  rw [dif_neg (show ¬((0 : Fin 2) ∈ (rowsDims w).lhsBatch) from List.not_mem_nil),
    dif_pos (show (0 : Fin 2) ∈ (rowsDims w).lhsNonContracting from List.mem_singleton.mpr rfl)]
  rfl

/-- and the right operand in the row the result's second coordinate names. -/
theorem rhs_row (i : (⟨2, ![m, n]⟩ : Shape).Idx) (q : (rowsDims w).contr.Idx) :
    ((rowsDims w).rhsIdx i q 0).val = (i 1).val := by
  unfold DotDims.rhsIdx
  rw [dif_neg (show ¬((0 : Fin 2) ∈ (rowsDims w).rhsBatch) from List.not_mem_nil),
    dif_pos (show (0 : Fin 2) ∈ (rowsDims w).rhsNonContracting from List.mem_singleton.mpr rfl)]
  rfl

/-- The product of an `[m, k]` matrix with the transpose of an `[n, k]` matrix (each operand's second axis
    contracted, no batch axes) accumulated into the zero splat, read at `(p, j)`: the sum over the contracted
    coordinate `c` of `A (p, c) · B (j, c)`. -/
theorem matmul_rows_zero_apply {φ₁ φ₂ : FTy} (prec : Option ContractPrecision)
    (A : FVec Ideal ⟨2, ![m, k]⟩ φ₁) (B : FVec Ideal ⟨2, ![n, k]⟩ φ₂) (p : Fin m) (j : Fin n) :
    matmul (rowsDims w) prec A B (constant (F := Ideal) ⟨2, ![m, n]⟩ .f32 0x00000000#32) (ix2 p j)
      = ∑ c : Fin k, A (ix2 p c) * B (ix2 j c) := by
  show FloatOps.matmul _ prec A B _ (ix2 p j) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 p j) ((contrEquiv1 (rowsDims w) k rfl rfl).symm c) = ix2 p c :=
    funext fun ax => Fin.ext (by
      match ax with
      | ⟨0, _⟩ => exact lhs_row w _ _
      | ⟨1, _⟩ => exact ((rowsDims w).lhsIdx_val_of_single rfl _ _).trans c2)
  have r2 : (rowsDims w).rhsIdx (ix2 p j) ((contrEquiv1 (rowsDims w) k rfl rfl).symm c) = ix2 j c :=
    funext fun ax => Fin.ext (by
      match ax with
      | ⟨0, _⟩ => exact rhs_row w _ _
      | ⟨1, _⟩ => exact ((rowsDims w).rhsIdx_val_of_single rfl _ _).trans c2)
  rw [l2, r2]

end Cert.LibMatmulRows

end
-- ==== Proof.LibRowLaneCasts.lean ====
/-
  A matrix carried with two unit axes around it: the shape casts `[1, a, 1, b] → [a, b]` and `[a, b] → [1, a, 1, b]`
  read at an index. Both arrays list the same `a · b` entries in the same row-major order, so entry `(p, c)` of the
  matrix is entry `(0, p, 0, c)` of the four-axis array. General in the extents and in the element type.
-/
import Idealize.ShloMosaic.Lib.Pipeline.Value
import Idealize.ShloMosaic.Lib.ValueIdx

noncomputable section

namespace Cert.LibRowLaneCasts

open Idealize.ShloMosaic Idealize.ShloMosaic.ValueIdx

variable {α : Type} {a b : ℕ}

/-- A `[1, a, 1, b]` array cast to the matrix `[a, b]` reads, at `(p, c)`, the operand at `(u, p, u', c)`, whatever the
    two unit coordinates. -/
theorem shapeCast_1a1b_ab_apply (x : (⟨4, ![1, a, 1, b]⟩ : Shape).Idx → α)
    (h : (⟨4, ![1, a, 1, b]⟩ : Shape).ShapeCasts ⟨2, ![a, b]⟩) (p : Fin a) (c : Fin b) (u u' : Fin 1) :
    shapeCast ⟨2, ![a, b]⟩ x h (ix2 p c) = x (ix4 u p u' c) :=
  shapeCast_apply x h _ _ (by
    have hu : u.val = 0 := by omega
    have hu' : u'.val = 0 := by omega
    rw [Shape.rowMajor_val_two, Shape.rowMajor_val_four]
    show ((u.val * a + p.val) * 1 + u'.val) * b + c.val = p.val * b + c.val
    rw [hu, hu', Nat.zero_mul, Nat.zero_add, Nat.mul_one, Nat.add_zero])

/-- A matrix `[a, b]` cast to `[1, a, 1, b]` reads, at an index `j`, the operand at `(j 1, j 3)`. -/
theorem shapeCast_ab_1a1b_apply (y : (⟨2, ![a, b]⟩ : Shape).Idx → α)
    (h : (⟨2, ![a, b]⟩ : Shape).ShapeCasts ⟨4, ![1, a, 1, b]⟩) (j : (⟨4, ![1, a, 1, b]⟩ : Shape).Idx) :
    shapeCast ⟨4, ![1, a, 1, b]⟩ y h j = y (ix2 (j 1) (j 3)) :=
  shapeCast_apply y h _ _ (by
    have h0 : (j 0).val = 0 := by have h : (j 0).val < 1 := (j 0).isLt; omega
    have h2 : (j 2).val = 0 := by have h : (j 2).val < 1 := (j 2).isLt; omega
    rw [Shape.rowMajor_val_two, Shape.rowMajor_val_four]
    show (j 1).val * b + (j 3).val = (((j 0).val * a + (j 1).val) * 1 + (j 2).val) * b + (j 3).val
    rw [h0, h2, Nat.zero_mul, Nat.zero_add, Nat.mul_one, Nat.add_zero])

end Cert.LibRowLaneCasts

end
-- ==== Proof.HeadValue.lean ====
/-
  One attention head of the kernel body, as a function of the head's query, key and value matrices.

  The body treats its eight heads alike: it scales the head's `[256, 64]` query rows by one eighth, takes their inner
  products with the `[2048, 64]` key rows (a `[256, 2048]` matrix of scores), turns each row of scores into softmax
  weights (subtract the row's maximum, exponentiate, divide by the row's sum), and multiplies the weights by the
  `[2048, 64]` value matrix. `head` is that chain of operations; each of the body's eight stored values is `head` of
  the three slices it loads, whatever way the body's text is cut; and at the ideal values `head` read at row `r` and
  lane `e` is the softmax-weighted sum of the specification.
-/
import proofs.«119856_j56710748176493_2_alg».proof.Proof.Gen.KernelIdeal.Skeleton
import proofs.«119856_j56710748176493_2_alg».proof.Proof.AttnSpec
import proofs.«119856_j56710748176493_2_alg».proof.Proof.LibRowReduce
import proofs.«119856_j56710748176493_2_alg».proof.Proof.LibMatmulRows
import proofs.«119856_j56710748176493_2_alg».proof.Proof.LibRowLaneCasts

noncomputable section

open scoped BigOperators

namespace Cert.KernelIdeal.Head

open Cert.KernelIdeal Cert.KernelIdeal.Gen Idealize.ShloMosaic Idealize.ShloMosaic.ValueIdx

variable {F : FTy → Type} [FloatOps F]

/-! ## The chain of operations -/

/-- The scores: the query rows scaled by one eighth against the key rows. -/
def scores (q : FVec F S256x64 .f32) (k : FVec F S2048x64 .f32) : FVec F S256x2048 .f32 :=
  matmul dot_S256x64_S2048x64_S256x2048_1_1_0_0_n_n none
    (truncf .bf16 (mulf q (broadcast S256x64 (Scalar.ofBits .f32 0x3E000000#32))) bitsLt_bf16_f32)
    (truncf .bf16 k bitsLt_bf16_f32) (constant S256x2048 .f32 0x00000000#32)

/-- Each row's maximum, repeated along the row. -/
def rowMax (s : FVec F S256x2048 .f32) : FVec F S256x2048 .f32 :=
  broadcastTo S256x2048
    (shapeCast S256x1 (multiReduction .maximumf [1] S256 s 0xFF800000#32 reduces_S256x2048_S256 (.inl rfl) rfl)
      shapeCasts_S256_S256x1) broadcasts_S256x1_S256x2048

/-- Each row's sum, repeated along the row. -/
def rowSum (p : FVec F S256x2048 .f32) : FVec F S256x2048 .f32 :=
  broadcastTo S256x2048
    (shapeCast S256x1 (multiReduction .add [1] S256 p 0x00000000#32 reduces_S256x2048_S256 (.inl rfl) rfl)
      shapeCasts_S256_S256x1) broadcasts_S256x1_S256x2048

/-- The exponential of each score less its row's maximum. -/
def expShifted (s : FVec F S256x2048 .f32) : FVec F S256x2048 .f32 := exp (subf s (rowMax s))

/-- The softmax weights of each row. -/
def weights (s : FVec F S256x2048 .f32) : FVec F S256x2048 .f32 := divf (expShifted s) (rowSum (expShifted s))

/-- One head: the weights of the scores times the value matrix. -/
def head (q : FVec F S256x64 .f32) (k v : FVec F S2048x64 .f32) : FVec F S256x64 .f32 :=
  matmul dot_S256x2048_S2048x64_S256x64_1_0_0_1_n_n none (truncf .bf16 (weights (scores q k)) bitsLt_bf16_f32)
    (truncf .bf16 v bitsLt_bf16_f32) (constant S256x64 .f32 0x00000000#32)

/-- One head on the slices as the body loads and stores them, with the two unit axes of a block's head slice. -/
def headSlice (a : Vec F S1x256x1x64 .f32) (b c : Vec F S1x2048x1x64 .f32) : FVec F S1x256x1x64 .f32 :=
  shapeCast S1x256x1x64
    (head (shapeCast S256x64 a shapeCasts_S1x256x1x64_S256x64) (shapeCast S2048x64 b shapeCasts_S1x2048x1x64_S2048x64)
      (shapeCast S2048x64 c shapeCasts_S1x2048x1x64_S2048x64)) shapeCasts_S256x64_S1x256x1x64

/-! ## The body's eight stored values -/

theorem stored0 (a : Vec F S1x256x1x64 .f32) (b c : Vec F S1x2048x1x64 .f32) : k0_pay2 a b c = headSlice a b c := rfl
theorem stored1 (a : Vec F S1x256x1x64 .f32) (b c : Vec F S1x2048x1x64 .f32) :
    k0_pay4 (k0_pay3 a) b c = headSlice a b c := rfl
theorem stored2 (a : Vec F S1x256x1x64 .f32) (b c : Vec F S1x2048x1x64 .f32) :
    k0_pay7 (k0_pay5 a) (k0_pay6 b) c = headSlice a b c := rfl
theorem stored3 (a : Vec F S1x256x1x64 .f32) (b c : Vec F S1x2048x1x64 .f32) :
    k0_pay10 (k0_pay8 c) (k0_pay9 a b) = headSlice a b c := rfl
theorem stored4 (a : Vec F S1x256x1x64 .f32) (b c : Vec F S1x2048x1x64 .f32) :
    k0_pay12 (k0_pay11 a b c) = headSlice a b c := rfl
theorem stored5 (a : Vec F S1x256x1x64 .f32) (b c : Vec F S1x2048x1x64 .f32) : k0_pay13 a b c = headSlice a b c := rfl
theorem stored6 (a : Vec F S1x256x1x64 .f32) (b c : Vec F S1x2048x1x64 .f32) :
    k0_pay15 (k0_pay14 a) b c = headSlice a b c := rfl
theorem stored7 (a : Vec F S1x256x1x64 .f32) (b c : Vec F S1x2048x1x64 .f32) :
    k0_pay1 (k0_pay16 a) (k0_pay17 b) c = headSlice a b c := rfl

end Cert.KernelIdeal.Head

end
-- ==== Proof.BlockValue.lean ====
/-
  What the kernel body leaves in its output block, as one function of its three input blocks.

  A block of the queries (and of the result) is `[1, 256, 8, 64]`: 256 positions, 8 heads, 64 lanes; a block of the keys
  or of the values is `[1, 2048, 8, 64]`. The body stores, for each of the 8 heads, the head's `[256, 64]` result into
  that head's slice of the output block. The eight slices tile the block, so entry `(0, r, h, e)` of the output block
  is entry `(r, e)` of head `h`'s result, computed from head `h`'s slices of the three input blocks.
-/
import proofs.«119856_j56710748176493_2_alg».proof.Proof.Gen.KernelIdeal.Frame
import proofs.«119856_j56710748176493_2_alg».proof.Proof.HeadValue

noncomputable section

namespace Cert.KernelIdeal.Block

open Cert.KernelIdeal Cert.KernelIdeal.Gen Cert.KernelIdeal.Head Idealize.ShloMosaic Idealize.ShloMosaic.ValueIdx

variable {F : FTy → Type} [FloatOps F]

/-- Head `hh`'s `[256, 64]` slice of a query block. -/
def qSlice (x : Vec F S1x256x8x64 .f32) (hh : Fin 8) : FVec F S256x64 .f32 :=
  fun j => x (ix4 (0 : Fin 1) (j 0) hh (j 1))

/-- Head `hh`'s `[2048, 64]` slice of a key or value block. -/
def kvSlice (x : Vec F S1x2048x8x64 .f32) (hh : Fin 8) : FVec F S2048x64 .f32 :=
  fun j => x (ix4 (0 : Fin 1) (j 0) hh (j 1))

/-- The output block: at `(0, r, h, e)`, head `h` of the three input blocks at `(r, e)`. -/
def blockOut (x0 : Vec F S1x256x8x64 .f32) (x1 x2 : Vec F S1x2048x8x64 .f32) : Vec F S1x256x8x64 .f32 :=
  fun y => head (qSlice x0 (y 2)) (kvSlice x1 (y 2)) (kvSlice x2 (y 2)) (ix2 (y 1) (y 3))

/-- The body's load of head `o`'s rectangle of a query block, with its unit axes cast away, is that head's slice. -/
theorem cast_ld_q (x0 : Vec F S1x256x8x64 .f32) (o : ℕ) (ho : o < 8)
    (inb : ∀ a, (![0, 0, o, 0] : Fin 4 → Nat) a + S1x256x1x64.size a ≤ S1x256x8x64.size a) :
    shapeCast S256x64 (View.ld x0 (Rect.unit (s := S1x256x8x64) ![0, 0, o, 0] S1x256x1x64.size inb))
        shapeCasts_S1x256x1x64_S256x64 = qSlice x0 ⟨o, ho⟩ := by
  funext j
  obtain ⟨p, c, rfl⟩ : ∃ (p : Fin 256) (c : Fin 64), j = ix2 p c := ⟨j 0, j 1, eq_ix2 j⟩
  rw [Cert.LibRowLaneCasts.shapeCast_1a1b_ab_apply _ _ p c (0 : Fin 1) (0 : Fin 1)]
  show x0 ((Rect.unit (s := S1x256x8x64) ![0, 0, o, 0] S1x256x1x64.size inb).idx (ix4 (0 : Fin 1) p (0 : Fin 1) c))
    = x0 (ix4 (0 : Fin 1) p (⟨o, ho⟩ : Fin 8) c)
  refine congrArg x0 (funext fun a => Fin.ext ?_)
  match a with
  | ⟨0, _⟩ => rfl
  | ⟨1, _⟩ => show 0 + 1 * p.val = p.val; omega
  | ⟨2, _⟩ => show o + 1 * 0 = o; omega
  | ⟨3, _⟩ => show 0 + 1 * c.val = c.val; omega

/-- The same for a key or value block. -/
theorem cast_ld_kv (x1 : Vec F S1x2048x8x64 .f32) (o : ℕ) (ho : o < 8)
    (inb : ∀ a, (![0, 0, o, 0] : Fin 4 → Nat) a + S1x2048x1x64.size a ≤ S1x2048x8x64.size a) :
    shapeCast S2048x64 (View.ld x1 (Rect.unit (s := S1x2048x8x64) ![0, 0, o, 0] S1x2048x1x64.size inb))
        shapeCasts_S1x2048x1x64_S2048x64 = kvSlice x1 ⟨o, ho⟩ := by
  funext j
  obtain ⟨p, c, rfl⟩ : ∃ (p : Fin 2048) (c : Fin 64), j = ix2 p c := ⟨j 0, j 1, eq_ix2 j⟩
  rw [Cert.LibRowLaneCasts.shapeCast_1a1b_ab_apply _ _ p c (0 : Fin 1) (0 : Fin 1)]
  show x1 ((Rect.unit (s := S1x2048x8x64) ![0, 0, o, 0] S1x2048x1x64.size inb).idx (ix4 (0 : Fin 1) p (0 : Fin 1) c))
    = x1 (ix4 (0 : Fin 1) p (⟨o, ho⟩ : Fin 8) c)
  refine congrArg x1 (funext fun a => Fin.ext ?_)
  match a with
  | ⟨0, _⟩ => rfl
  | ⟨1, _⟩ => show 0 + 1 * p.val = p.val; omega
  | ⟨2, _⟩ => show o + 1 * 0 = o; omega
  | ⟨3, _⟩ => show 0 + 1 * c.val = c.val; omega

/-- Head `o`'s stored value, at a local index `x` of its rectangle, is the output block's entry at the place of the
    block that index names. -/
theorem piece_eq (x0 : Vec F S1x256x8x64 .f32) (x1 x2 : Vec F S1x2048x8x64 .f32) (o : ℕ) (ho : o < 8)
    (inbq : ∀ a, (![0, 0, o, 0] : Fin 4 → Nat) a + S1x256x1x64.size a ≤ S1x256x8x64.size a)
    (inbk : ∀ a, (![0, 0, o, 0] : Fin 4 → Nat) a + S1x2048x1x64.size a ≤ S1x2048x8x64.size a)
    (x : S1x256x1x64.Idx) :
    headSlice (View.ld x0 (Rect.unit (s := S1x256x8x64) ![0, 0, o, 0] S1x256x1x64.size inbq))
        (View.ld x1 (Rect.unit (s := S1x2048x8x64) ![0, 0, o, 0] S1x2048x1x64.size inbk))
        (View.ld x2 (Rect.unit (s := S1x2048x8x64) ![0, 0, o, 0] S1x2048x1x64.size inbk)) x
      = blockOut x0 x1 x2 ((Rect.unit (s := S1x256x8x64) ![0, 0, o, 0] S1x256x1x64.size inbq).emb x) := by
  unfold headSlice
  rw [Cert.LibRowLaneCasts.shapeCast_ab_1a1b_apply, cast_ld_q x0 o ho inbq, cast_ld_kv x1 o ho inbk,
    cast_ld_kv x2 o ho inbk]
  have h2 : (x 2).val = 0 := by have h : (x 2).val < 1 := (x 2).isLt; omega
  have e2 : ((Rect.unit (s := S1x256x8x64) ![0, 0, o, 0] S1x256x1x64.size inbq).emb x) 2 = (⟨o, ho⟩ : Fin 8) :=
    Fin.ext (by show o + 1 * (x 2).val = o; omega)
  have e1 : ((Rect.unit (s := S1x256x8x64) ![0, 0, o, 0] S1x256x1x64.size inbq).emb x) 1 = x 1 :=
    Fin.ext (by show 0 + 1 * (x 1).val = (x 1).val; omega)
  have e3 : ((Rect.unit (s := S1x256x8x64) ![0, 0, o, 0] S1x256x1x64.size inbq).emb x) 3 = x 3 :=
    Fin.ext (by show 0 + 1 * (x 3).val = (x 3).val; omega)
  unfold blockOut
  rw [e1, e2, e3]

/-- THE OUTPUT BLOCK after the body: the eight stores tile it, each with its head's slice of `blockOut`. -/
theorem out_eq (x0 : Vec F S1x256x8x64 .f32) (x1 x2 : Vec F S1x2048x8x64 .f32) :
    out0_3 x0 x1 x2 = blockOut x0 x1 x2 := by
  funext y
  unfold out0_3
  rw [stored0, stored1, stored2, stored3, stored4, stored5, stored6, stored7]
  refine View.canon_apply_of_pieces (blockOut x0 x1 x2) _ ?_ y (cover0_3 _ _ _ _ _ _ _ _ y)
  intro p hp
  simp only [List.mem_cons, List.mem_nil_iff, or_false] at hp
  rcases hp with rfl | rfl | rfl | rfl | rfl | rfl | rfl | rfl
  · exact piece_eq x0 x1 x2 7 (by omega) _ _
  · exact piece_eq x0 x1 x2 6 (by omega) _ _
  · exact piece_eq x0 x1 x2 5 (by omega) _ _
  · exact piece_eq x0 x1 x2 4 (by omega) _ _
  · exact piece_eq x0 x1 x2 3 (by omega) _ _
  · exact piece_eq x0 x1 x2 2 (by omega) _ _
  · exact piece_eq x0 x1 x2 1 (by omega) _ _
  · exact piece_eq x0 x1 x2 0 (by omega) _ _

end Cert.KernelIdeal.Block

end
-- ==== Proof.HeadIdeal.lean ====
/-
  One attention head read at an entry, at the ideal values (a float an extended real, a change of format the identity).
  A score is the inner product of a scaled query row with a key row; a weight is `exp` of the score less its row's
  maximum over the row's sum of those exponentials; the head's entry `(r, e)` is the sum over the key positions of the
  weight times the value matrix's entry in lane `e`.
-/
import proofs.«119856_j56710748176493_2_alg».proof.Proof.HeadValue

noncomputable section

open scoped BigOperators

namespace Cert.KernelIdeal.Head

open Cert.KernelIdeal Cert.KernelIdeal.Gen Idealize.ShloMosaic Idealize.ShloMosaic.ValueIdx

/-- A score: row `r` of the queries, each entry scaled by one eighth, against row `t` of the keys. -/
theorem scores_apply (q : FVec Ideal S256x64 .f32) (k : FVec Ideal S2048x64 .f32) (r : Fin 256) (t : Fin 2048) :
    scores q k (ix2 r t) = ∑ d : Fin 64, (q (ix2 r d) * Ideal.ofBits .f32 0x3E000000#32) * k (ix2 t d) :=
  Cert.LibMatmulRows.matmul_rows_zero_apply dot_S256x64_S2048x64_S256x2048_1_1_0_0_n_n_wf none
    (truncf .bf16 (mulf q (broadcast S256x64 (Scalar.ofBits (F := Ideal) .f32 0x3E000000#32))) bitsLt_bf16_f32)
    (truncf .bf16 k bitsLt_bf16_f32) r t

/-- A weight, from the scores `σ` of its row. -/
theorem weights_apply (s : FVec Ideal S256x2048 .f32) (r : Fin 256) (t : Fin 2048) (σ : Fin 2048 → EReal)
    (hs : ∀ u, s (ix2 r u) = σ u) :
    weights s (ix2 r t)
      = Ideal.div (Ideal.exp (σ t - (Finset.univ : Finset (Fin 2048)).fold max ⊥ σ))
          (∑ u : Fin 2048, Ideal.exp (σ u - (Finset.univ : Finset (Fin 2048)).fold max ⊥ σ)) := by
  have hM : ∀ u : Fin 2048, rowMax s (ix2 r u) = (Finset.univ : Finset (Fin 2048)).fold max ⊥ σ := fun u =>
    (Cert.LibRowReduce.keepdimsMax_apply s reduces_S256x2048_S256 (.inl rfl) rfl shapeCasts_S256_S256x1
        broadcasts_S256x1_S256x2048 r u).trans
      (congrArg (fun f : Fin 2048 → EReal => (Finset.univ : Finset (Fin 2048)).fold max ⊥ f) (funext hs))
  have hE : ∀ u : Fin 2048, expShifted s (ix2 r u)
      = Ideal.exp (σ u - (Finset.univ : Finset (Fin 2048)).fold max ⊥ σ) := fun u =>
    congrArg Ideal.exp (congrArg₂ (· - ·) (hs u) (hM u))
  exact congrArg₂ Ideal.div (hE t)
    ((Cert.LibRowReduce.keepdimsSum_apply (expShifted s) reduces_S256x2048_S256 (.inl rfl) rfl shapeCasts_S256_S256x1
        broadcasts_S256x1_S256x2048 r t).trans (Finset.sum_congr rfl fun u _ => hE u))

/-- The head at row `r` and lane `e`: the softmax of row `r`'s scores, as weights of lane `e` of the values. -/
theorem head_apply (q : FVec Ideal S256x64 .f32) (k v : FVec Ideal S2048x64 .f32) (r : Fin 256) (e : Fin 64) :
    head q k v (ix2 r e)
      = Cert.AttnSpec.softmaxDot
          (fun t : Fin 2048 => ∑ d : Fin 64, (q (ix2 r d) * Ideal.ofBits .f32 0x3E000000#32) * k (ix2 t d))
          (fun t : Fin 2048 => v (ix2 t e)) := by
  refine (Cert.LibKernelIdx.matmul_zero_apply dot_S256x2048_S2048x64_S256x64_1_0_0_1_n_n_wf none
    (truncf .bf16 (weights (scores q k)) bitsLt_bf16_f32) (truncf .bf16 v bitsLt_bf16_f32) r e).trans ?_
  unfold Cert.AttnSpec.softmaxDot
  refine Finset.sum_congr rfl fun t _ => ?_
  exact congrArg (· * v (ix2 t e)) (weights_apply (scores q k) r t _ (fun u => scores_apply q k r u))

end Cert.KernelIdeal.Head

end
-- ==== Proof.WholeValue.lean ====
/-
  The kernel's result array after the run, as one function of the three head-split arrays the region is launched on.

  The region's arrays are `[2, 2048, 16, 64]`: batch, position, head, lane. Grid point `(b, g, q)` stages the query
  block of batch `b`, positions `256 q … 256 q + 255`, heads `8 g … 8 g + 7`, the key and value blocks of batch `b`, all
  positions, the same eight heads, and writes back the result block at the query block's place. So entry
  `(b, s, h, e)` of the result is written once, by the point whose query block holds position `s` and head `h`, and
  it is the attention of query `(b, s, h)` over all key positions of `(b, h)`, at lane `e` of the values.
-/
import proofs.«119856_j56710748176493_2_alg».proof.Proof.Gen.KernelIdeal.Frame
import proofs.«119856_j56710748176493_2_alg».proof.Proof.BlockValue
import proofs.«119856_j56710748176493_2_alg».proof.Proof.HeadIdeal
import Idealize.ShloMosaic.Lib.Pipeline.Value
import Idealize.ShloMosaic.Lib.Tactic

set_option maxRecDepth 16384

noncomputable section

open scoped BigOperators

namespace Cert.KernelIdeal.Whole

open Cert.KernelIdeal Cert.KernelIdeal.Gen Cert.KernelIdeal.Head Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The specification on the head-split arrays -/

/-- The head-split arrays: batch, position, head, lane. -/
abbrev Arr4 : Type := S2x2048x16x64.Idx → EReal

/-- Attention on the head-split arrays: at `(b, s, h, e)` the softmax over the key positions `t` of the scores of query
    `(b, s, h)` against key `(b, t, h)`, as weights of the values `(b, t, h, e)`. -/
def attnHeads (A0 A1 A2 : Arr4) : Arr4 := fun i =>
  Cert.AttnSpec.softmaxDot
    (fun t : Fin 2048 => ∑ d : Fin 64,
      (A0 (ix4 (i 0) (i 1) (i 2) d) * Ideal.ofBits .f32 0x3E000000#32) * A1 (ix4 (i 0) t (i 2) d))
    (fun t : Fin 2048 => A2 (ix4 (i 0) t (i 2) (i 3)))

/-- The output block at a block index, from the entries of the three input blocks. -/
theorem blockOut_apply (x0 : Vec Ideal S1x256x8x64 .f32) (x1 x2 : Vec Ideal S1x2048x8x64 .f32) (y : S1x256x8x64.Idx) :
    blockOut x0 x1 x2 y
      = Cert.AttnSpec.softmaxDot
          (fun t : Fin 2048 => ∑ d : Fin 64,
            (x0 (ix4 (0 : Fin 1) (y 1) (y 2) d) * Ideal.ofBits .f32 0x3E000000#32) * x1 (ix4 (0 : Fin 1) t (y 2) d))
          (fun t : Fin 2048 => x2 (ix4 (0 : Fin 1) t (y 2) (y 3))) :=
  head_apply (qSlice x0 (y 2)) (kvSlice x1 (y 2)) (kvSlice x2 (y 2)) (y 1) (y 3)

/-! ## The blocks as parts of the arrays -/

/-- The printed index maps, decided over the 32 grid points: the query window moves with the result window; the key
    and value windows share its batch and head-group coordinates and stay at position block 0; no window moves along
    the lanes; and the result window's block indices stay in their ranges. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = 0
    ∧ win0_1.index t (2 : Fin 4) = win0_3.index t (2 : Fin 4) ∧ win0_1.index t (3 : Fin 4) = 0
    ∧ win0_2.index t (0 : Fin 4) = win0_3.index t (0 : Fin 4) ∧ win0_2.index t (1 : Fin 4) = 0
    ∧ win0_2.index t (2 : Fin 4) = win0_3.index t (2 : Fin 4) ∧ win0_2.index t (3 : Fin 4) = 0
    ∧ win0_3.index t (3 : Fin 4) = 0
    ∧ win0_3.index t (0 : Fin 4) ≤ 1 ∧ win0_3.index t (1 : Fin 4) ≤ 7 ∧ win0_3.index t (2 : Fin 4) ≤ 1 :=
  (by decide +kernel : ∀ t : Fin grid0.N, _)

/-- Every block of the result array is some point's. -/
theorem idx_onto : ∀ (q0 : Fin 2) (q1 : Fin 8) (q2 : Fin 2), ∃ t : Fin cfg0.N,
    win0_3.index t = ![q0.val, q1.val, q2.val, 0] :=
  (by decide +kernel : ∀ (q0 : Fin 2) (q1 : Fin 8) (q2 : Fin 2), ∃ t : Fin grid0.N,
    win0_3.index t = ![q0.val, q1.val, q2.val, 0])

/-- An entry of the query block at point `t` is the entry of the query array at the block's offset plus the local
    coordinates. -/
theorem iblk0_apply (c : Dev nD) (t : Fin cfg0.N) (x : S1x256x8x64.Idx) (k : S2x2048x16x64.Idx)
    (h0 : (k 0).val = win0_0.index t (0 : Fin 4) * 1 + (x 0).val)
    (h1 : (k 1).val = win0_0.index t (1 : Fin 4) * 256 + (x 1).val)
    (h2 : (k 2).val = win0_0.index t (2 : Fin 4) * 8 + (x 2).val)
    (h3 : (k 3).val = win0_0.index t (3 : Fin 4) * 64 + (x 3).val) :
    (iblk m c 0 t : Vec Ideal S1x256x8x64 .f32) x = (V m c main_v0 : Arr4) k := by
  unfold iblk
  rw [View.read_apply]
  show V m c main_v0 _ = V m c main_v0 _
  congr 1
  funext a
  apply Fin.ext
  match a with
  | ⟨0, _⟩ => show win0_0.index t (0 : Fin 4) * 1 + 1 * (x 0).val = (k 0).val; omega
  | ⟨1, _⟩ => show win0_0.index t (1 : Fin 4) * 256 + 1 * (x 1).val = (k 1).val; omega
  | ⟨2, _⟩ => show win0_0.index t (2 : Fin 4) * 8 + 1 * (x 2).val = (k 2).val; omega
  | ⟨3, _⟩ => show win0_0.index t (3 : Fin 4) * 64 + 1 * (x 3).val = (k 3).val; omega

/-- The same for the key block. -/
theorem iblk1_apply (c : Dev nD) (t : Fin cfg0.N) (x : S1x2048x8x64.Idx) (k : S2x2048x16x64.Idx)
    (h0 : (k 0).val = win0_1.index t (0 : Fin 4) * 1 + (x 0).val)
    (h1 : (k 1).val = win0_1.index t (1 : Fin 4) * 2048 + (x 1).val)
    (h2 : (k 2).val = win0_1.index t (2 : Fin 4) * 8 + (x 2).val)
    (h3 : (k 3).val = win0_1.index t (3 : Fin 4) * 64 + (x 3).val) :
    (iblk m c 1 t : Vec Ideal S1x2048x8x64 .f32) x = (V m c main_v1 : Arr4) k := by
  unfold iblk
  rw [View.read_apply]
  show V m c main_v1 _ = V m c main_v1 _
  congr 1
  funext a
  apply Fin.ext
  match a with
  | ⟨0, _⟩ => show win0_1.index t (0 : Fin 4) * 1 + 1 * (x 0).val = (k 0).val; omega
  | ⟨1, _⟩ => show win0_1.index t (1 : Fin 4) * 2048 + 1 * (x 1).val = (k 1).val; omega
  | ⟨2, _⟩ => show win0_1.index t (2 : Fin 4) * 8 + 1 * (x 2).val = (k 2).val; omega
  | ⟨3, _⟩ => show win0_1.index t (3 : Fin 4) * 64 + 1 * (x 3).val = (k 3).val; omega

/-- The same for the value block. -/
theorem iblk2_apply (c : Dev nD) (t : Fin cfg0.N) (x : S1x2048x8x64.Idx) (k : S2x2048x16x64.Idx)
    (h0 : (k 0).val = win0_2.index t (0 : Fin 4) * 1 + (x 0).val)
    (h1 : (k 1).val = win0_2.index t (1 : Fin 4) * 2048 + (x 1).val)
    (h2 : (k 2).val = win0_2.index t (2 : Fin 4) * 8 + (x 2).val)
    (h3 : (k 3).val = win0_2.index t (3 : Fin 4) * 64 + (x 3).val) :
    (iblk m c 2 t : Vec Ideal S1x2048x8x64 .f32) x = (V m c main_v2 : Arr4) k := by
  unfold iblk
  rw [View.read_apply]
  show V m c main_v2 _ = V m c main_v2 _
  congr 1
  funext a
  apply Fin.ext
  match a with
  | ⟨0, _⟩ => show win0_2.index t (0 : Fin 4) * 1 + 1 * (x 0).val = (k 0).val; omega
  | ⟨1, _⟩ => show win0_2.index t (1 : Fin 4) * 2048 + 1 * (x 1).val = (k 1).val; omega
  | ⟨2, _⟩ => show win0_2.index t (2 : Fin 4) * 8 + 1 * (x 2).val = (k 2).val; omega
  | ⟨3, _⟩ => show win0_2.index t (3 : Fin 4) * 64 + 1 * (x 3).val = (k 3).val; omega

/-! ## What a point writes back, and the array after the run -/

/-- WHAT POINT `t` WRITES BACK is block `t` of the attention of the arrays as the region finds them: the query block
    sits where the result block sits, the key and value blocks hold every position of the same batch and heads. -/
theorem flushed_eq (c : Dev nD) (t : Fin cfg0.N) :
    (dats m 0 c).flushed 3 t
      = ((cfg0.win 3).blk t).view.read (Elt Ideal) (attnHeads (V m c main_v0) (V m c main_v1) (V m c main_v2)) := by
  show (cfg0.win 3).cut (grid0.coords t) ((dats m 0 c).after 3 t) = _
  rw [after0_3, out_eq]
  obtain ⟨a0, a1, a2, a3, b0, b1, b2, b3, c0, c1, c2, c3, o3, -, -, -⟩ := idx_facts t
  funext y
  rw [View.read_apply]
  have hy0 : (y 0).val = 0 := by have h : (y 0).val < 1 := (y 0).isLt; omega
  have e0 : ((((cfg0.win 3).blk t).view.emb y) 0).val = win0_3.index t (0 : Fin 4) * 1 + 1 * (y 0).val := rfl
  have e1 : ((((cfg0.win 3).blk t).view.emb y) 1).val = win0_3.index t (1 : Fin 4) * 256 + 1 * (y 1).val := rfl
  have e2 : ((((cfg0.win 3).blk t).view.emb y) 2).val = win0_3.index t (2 : Fin 4) * 8 + 1 * (y 2).val := rfl
  have e3 : ((((cfg0.win 3).blk t).view.emb y) 3).val = win0_3.index t (3 : Fin 4) * 64 + 1 * (y 3).val := rfl
  show blockOut (iblk m c 0 t) (iblk m c 1 t) (iblk m c 2 t) y = _
  refine (blockOut_apply _ _ _ y).trans ?_
  unfold attnHeads
  refine congrArg₂ Cert.AttnSpec.softmaxDot (funext fun u => Finset.sum_congr rfl fun d _ => ?_) (funext fun u => ?_)
  · refine congrArg₂ (· * ·) (congrArg (· * Ideal.ofBits .f32 0x3E000000#32) ?_) ?_
    · refine iblk0_apply m c t _ _ ?_ ?_ ?_ ?_
      · show ((((cfg0.win 3).blk t).view.emb y) 0).val = win0_0.index t (0 : Fin 4) * 1 + 0; omega
      · show ((((cfg0.win 3).blk t).view.emb y) 1).val = win0_0.index t (1 : Fin 4) * 256 + (y 1).val; omega
      · show ((((cfg0.win 3).blk t).view.emb y) 2).val = win0_0.index t (2 : Fin 4) * 8 + (y 2).val; omega
      · show d.val = win0_0.index t (3 : Fin 4) * 64 + d.val; omega
    · refine iblk1_apply m c t _ _ ?_ ?_ ?_ ?_
      · show ((((cfg0.win 3).blk t).view.emb y) 0).val = win0_1.index t (0 : Fin 4) * 1 + 0; omega
      · show u.val = win0_1.index t (1 : Fin 4) * 2048 + u.val; omega
      · show ((((cfg0.win 3).blk t).view.emb y) 2).val = win0_1.index t (2 : Fin 4) * 8 + (y 2).val; omega
      · show d.val = win0_1.index t (3 : Fin 4) * 64 + d.val; omega
  · refine iblk2_apply m c t _ _ ?_ ?_ ?_ ?_
    · show ((((cfg0.win 3).blk t).view.emb y) 0).val = win0_2.index t (0 : Fin 4) * 1 + 0; omega
    · show u.val = win0_2.index t (1 : Fin 4) * 2048 + u.val; omega
    · show ((((cfg0.win 3).blk t).view.emb y) 2).val = win0_2.index t (2 : Fin 4) * 8 + (y 2).val; omega
    · show ((((cfg0.win 3).blk t).view.emb y) 3).val = win0_2.index t (3 : Fin 4) * 64 + (y 3).val; omega

/-- An index of the result array is in point `t`'s block iff each coordinate is in the block's range on its axis. -/
theorem mem_blk (t : Fin cfg0.N) (i : S2x2048x16x64.Idx) :
    i ∈ ((cfg0.win 3).blk t).view.set ↔ ∀ a : Fin 4, win0_3.index t a * S1x256x8x64.size a ≤ (i a).val
      ∧ (i a).val < win0_3.index t a * S1x256x8x64.size a + S1x256x8x64.size a := by
  show i ∈ ((View.whole main_v3).slice (win0_3.rect t)).set ↔ _
  rw [View.set_slice_whole, Rect.mem_set_unit]
  exact Iff.rfl

/-- Every index of the result array is in some point's block: the point of its batch, of its position's block of 256
    and of its head's group of 8. -/
theorem cover (i : S2x2048x16x64.Idx) :
    ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 16 := (i 2).isLt
  have hi3 : (i 3).val < 64 := (i 3).isLt
  obtain ⟨t, ht⟩ := idx_onto ⟨(i 0).val, hi0⟩ ⟨(i 1).val / 256, by omega⟩ ⟨(i 2).val / 8, by omega⟩
  have q0 : win0_3.index t (0 : Fin 4) = (i 0).val := congrFun ht 0
  have q1 : win0_3.index t (1 : Fin 4) = (i 1).val / 256 := congrFun ht 1
  have q2 : win0_3.index t (2 : Fin 4) = (i 2).val / 8 := congrFun ht 2
  have q3 : win0_3.index t (3 : Fin 4) = 0 := congrFun ht 3
  refine ⟨t, flush0_3 t, ?_⟩
  rw [mem_blk]
  intro a
  match a with
  | ⟨0, _⟩ =>
    show win0_3.index t (0 : Fin 4) * 1 ≤ (i 0).val ∧ (i 0).val < win0_3.index t (0 : Fin 4) * 1 + 1; omega
  | ⟨1, _⟩ =>
    show win0_3.index t (1 : Fin 4) * 256 ≤ (i 1).val ∧ (i 1).val < win0_3.index t (1 : Fin 4) * 256 + 256; omega
  | ⟨2, _⟩ =>
    show win0_3.index t (2 : Fin 4) * 8 ≤ (i 2).val ∧ (i 2).val < win0_3.index t (2 : Fin 4) * 8 + 8; omega
  | ⟨3, _⟩ =>
    show win0_3.index t (3 : Fin 4) * 64 ≤ (i 3).val ∧ (i 3).val < win0_3.index t (3 : Fin 4) * 64 + 64; omega

/-- THE RESULT ARRAY after the run is the attention of the three arrays as the region finds them. -/
theorem final (c : Dev nD) :
    (dats m 0 c).arrAt 3 cfg0.N = attnHeads (V m c main_v0) (V m c main_v1) (V m c main_v2) :=
  (dats m 0 c).arrAt_eq_of_cover 3 _ (fun t _ => flushed_eq m c t) cover

end Cert.KernelIdeal.Whole

end
-- ==== Proof.KernelRun.lean ====
/-
  The kernel program's run, read: its result is the specification of the three argument arrays.

  Before the region the program splits the minor axis of each argument into 16 heads of 64 lanes (a reshape: the same
  entries in the same row-major order, so `(b, s, h, d)` of the head-split array is `(b, s, 64 h + d)` of the
  argument); after it the program merges the two minor axes of the region's result back. Between the two the region
  leaves the attention of the head-split arrays (`Whole.final`), so the merged result at `(b, s, j)` is the attention
  at head `j / 64`, lane `j % 64`.
-/
import proofs.«119856_j56710748176493_2_alg».proof.Proof.WholeValue
import Idealize.ShloMosaic.Lib.StableHlo.Run

noncomputable section

open scoped BigOperators

namespace Cert.KernelIdeal.Whole

open Cert.KernelIdeal Cert.KernelIdeal.Gen Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Splitting and merging the minor axis -/

/-- The head-split array at `(b, s, h, d)` is the argument at `(b, s, 64 h + d)`. -/
theorem split_apply (A : Arr) (b : Fin 2) (s : Fin 2048) (h : Fin 16) (d : Fin 64) :
    shapeCast S2x2048x16x64 A shapeCasts_S2x2048x1024_S2x2048x16x64 (ix4 b s h d) = A (ix3 b s (col h d)) :=
  shapeCast_apply A shapeCasts_S2x2048x1024_S2x2048x16x64 (ix4 b s h d) (ix3 b s (col h d)) (by
    rw [Shape.rowMajor_val_three, Shape.rowMajor_val_four]
    show (b.val * 2048 + s.val) * 1024 + (h.val * 64 + d.val) = ((b.val * 2048 + s.val) * 16 + h.val) * 64 + d.val
    omega)

/-- The merged array at `(b, s, j)` is the head-split array at `(b, s, j / 64, j % 64)`. -/
theorem merge_apply (B : Arr4) (b : Fin 2) (s : Fin 2048) (j : Fin 1024) :
    shapeCast S2x2048x1024 B shapeCasts_S2x2048x16x64_S2x2048x1024 (ix3 b s j) = B (ix4 b s (headOf j) (laneOf j)) :=
  shapeCast_apply B shapeCasts_S2x2048x16x64_S2x2048x1024 (ix3 b s j) (ix4 b s (headOf j) (laneOf j)) (by
    rw [Shape.rowMajor_val_four, Shape.rowMajor_val_three]
    show ((b.val * 2048 + s.val) * 16 + j.val / 64) * 64 + j.val % 64 = (b.val * 2048 + s.val) * 1024 + j.val
    omega)

/-- Attention on the head-split arrays of three arguments is the specification's, head by head. -/
theorem attnHeads_split (A0 A1 A2 : Arr) (b : Fin 2) (s : Fin 2048) (h : Fin 16) (e : Fin 64) :
    attnHeads (shapeCast S2x2048x16x64 A0 shapeCasts_S2x2048x1024_S2x2048x16x64)
        (shapeCast S2x2048x16x64 A1 shapeCasts_S2x2048x1024_S2x2048x16x64)
        (shapeCast S2x2048x16x64 A2 shapeCasts_S2x2048x1024_S2x2048x16x64) (ix4 b s h e)
      = attn4 A0 A1 A2 b s h e := by
  show softmaxDot
      (fun t : Fin 2048 => ∑ d : Fin 64,
        (shapeCast S2x2048x16x64 A0 shapeCasts_S2x2048x1024_S2x2048x16x64 (ix4 b s h d)
            * Ideal.ofBits .f32 0x3E000000#32)
          * shapeCast S2x2048x16x64 A1 shapeCasts_S2x2048x1024_S2x2048x16x64 (ix4 b t h d))
      (fun t : Fin 2048 => shapeCast S2x2048x16x64 A2 shapeCasts_S2x2048x1024_S2x2048x16x64 (ix4 b t h e))
    = softmaxDot
      (fun t : Fin 2048 => ∑ d : Fin 64,
        (A0 (ix3 b s (col h d)) * Ideal.ofBits .f32 0x3E000000#32) * A1 (ix3 b t (col h d)))
      (fun t : Fin 2048 => A2 (ix3 b t (col h e)))
  simp only [split_apply]

/-! ## The host operations around the region -/

/-- The query array the region finds is the first argument with its minor axis split. -/
theorem V_main_v0 (c : Dev nD) :
    (V m c main_v0 : Arr4)
      = shapeCast S2x2048x16x64 (m ((c : Thread nD τ).loc main_arg0) : Arr) shapeCasts_S2x2048x1024_S2x2048x16x64 := by
  show StableHlo.after hostOps0 (fun b => m (c, b)) (Proc.devRef .tc main_v0) = _
  after_results
  rfl

/-- The key array the region finds is the second argument with its minor axis split. -/
theorem V_main_v1 (c : Dev nD) :
    (V m c main_v1 : Arr4)
      = shapeCast S2x2048x16x64 (m ((c : Thread nD τ).loc main_arg1) : Arr) shapeCasts_S2x2048x1024_S2x2048x16x64 := by
  show StableHlo.after hostOps0 (fun b => m (c, b)) (Proc.devRef .tc main_v1) = _
  after_results
  rfl

/-- The value array the region finds is the third argument with its minor axis split. -/
theorem V_main_v2 (c : Dev nD) :
    (V m c main_v2 : Arr4)
      = shapeCast S2x2048x16x64 (m ((c : Thread nD τ).loc main_arg2) : Arr) shapeCasts_S2x2048x1024_S2x2048x16x64 := by
  show StableHlo.after hostOps0 (fun b => m (c, b)) (Proc.devRef .tc main_v2) = _
  after_results
  rfl

/-- The program's result after the operation that follows the region: the region's result array with its two minor
    axes merged. -/
theorem tail_main_v4 (c : Dev nD) :
    Pipeline.afterTail₀ cfgs (dats m) 0 (V0 m) [hostOps1] c main_v4
      = shapeCast S2x2048x1024 ((dats m 0 c).arrAt 3 cfg0.N : Arr4) shapeCasts_S2x2048x16x64_S2x2048x1024 := by
  unfold Pipeline.afterTail₀
  show StableHlo.after hostOps1 _ (Proc.devRef .tc main_v4) = _
  after_results
  exact congrArg (fun z : Arr4 => shapeCast S2x2048x1024 z shapeCasts_S2x2048x16x64_S2x2048x1024)
    (Pipeline.withArrays_arr spec0 launch0.win.arr_inj c _ _ 3)

/-- THE KERNEL PROGRAM'S RESULT is the specification of its three arguments. -/
theorem result_eq (c : Dev nD) :
    Pipeline.afterTail₀ cfgs (dats m) 0 (V0 m) [hostOps1] c main_v4
      = attn (m ((c : Thread nD τ).loc main_arg0)) (m ((c : Thread nD τ).loc main_arg1))
          (m ((c : Thread nD τ).loc main_arg2)) := by
  rw [tail_main_v4, final, V_main_v0, V_main_v1, V_main_v2]
  funext i
  obtain ⟨b, s, j, rfl⟩ : ∃ (b : Fin 2) (s : Fin 2048) (j : Fin 1024), i = ix3 b s j := ⟨i 0, i 1, i 2, eq_ix3 i⟩
  rw [merge_apply, attnHeads_split]
  rfl

/-! ## The run -/

/-- Every weakly fair execution of the kernel program terminates, its result the specification of the arguments, the
    arguments unchanged. -/
theorem run : θ_run defs (onTc (τ := τ) (main (F := Ideal))) ⟨m, fun _ => 0, ρ⟩ fun r => ∀ c : Dev nD,
      r.2.mem ((c : Thread nD τ).loc main_v4)
        = attn (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference program's result is the specification, index by index.

  The reference splits the minor axis of each argument into 16 heads of 64 lanes and moves the head axis in front of
  the positions (`[2, 16, 2048, 64]`); its scores are the inner products over the lanes, then scaled by
  `1 / sqrt 64`; its softmax subtracts the row's maximum (the larger of `-∞` and the maximum, which is the maximum),
  exponentiates, and divides by the row's sum; the weighted sums of the values are moved back to
  `[2, 2048, 16, 64]` and the two minor axes merged. Scaling after the inner product is scaling each query entry
  before it (`Cert.AttnSpec.score_eq`), and `1 / sqrt 64` is one eighth.
-/
import proofs.«119856_j56710748176493_2_alg».proof.Proof.Gen.ReferenceIdeal.Read
import proofs.«119856_j56710748176493_2_alg».proof.Proof.AttnSpec
import Idealize.ShloMosaic.PureOps.Ideal.Laws
import Idealize.ShloMosaic.Lib.IdealHost

noncomputable section

open scoped BigOperators

namespace Cert.ReferenceIdeal.RefValue

open Cert.ReferenceIdeal Cert.ReferenceIdeal.Gen Cert.ReferenceIdeal.Read Cert.AttnSpec
open Idealize.ShloMosaic Idealize.ShloMosaic.ValueIdx

variable (x0 x1 x2 : (⟨S2x2048x1024, .f32⟩ : BufTy).Contents (Elt Ideal))

/-! ## Splitting and merging the minor axis -/

/-- Row-major position `((b · 2048 + s) · 16 + h) · 64 + d` of the head-split array is position `(b, s, 64 h + d)` of
    the argument. -/
theorem split_arith (b h s d : ℕ) (hb : b < 2) (hh : h < 16) (hs : s < 2048) (hd : d < 64) :
    (((b * 2048 + s) * 16 + h) * 64 + d) / 2097152 = b
    ∧ (((b * 2048 + s) * 16 + h) * 64 + d) / 1024 % 2048 = s
    ∧ (((b * 2048 + s) * 16 + h) * 64 + d) % 1024 = h * 64 + d := by omega

/-- Row-major position `(b · 2048 + s) · 1024 + j` of the result is position `(b, s, j / 64, j % 64)` of the head-split
    array. -/
theorem merge_arith (b s j : ℕ) (hb : b < 2) (hs : s < 2048) (hj : j < 1024) :
    ((b * 2048 + s) * 1024 + j) / 2097152 = b
    ∧ ((b * 2048 + s) * 1024 + j) / 1024 % 2048 = s
    ∧ ((b * 2048 + s) * 1024 + j) / 64 % 16 = j / 64
    ∧ ((b * 2048 + s) * 1024 + j) % 64 = j % 64 := by omega

/-- The queries, head in front: entry `(b, h, s, d)` is the argument's `(b, s, 64 h + d)`. -/
theorem q_apply (b : Fin 2) (h : Fin 16) (s : Fin 2048) (d : Fin 64) :
    val_main_v1 (F := Ideal) x0 (ix4 b h s d) = x0 (ix3 b s (col h d)) := by
  rw [val_main_v1_apply, val_main_v0_apply]
  refine congrArg x0 (funext fun a => Fin.ext ?_)
  obtain ⟨e0, e1, e2⟩ := split_arith b.val h.val s.val d.val b.isLt h.isLt s.isLt d.isLt
  match a with
  | ⟨0, _⟩ => exact e0
  | ⟨1, _⟩ => exact e1
  | ⟨2, _⟩ => exact e2

/-- The keys, head in front. -/
theorem k_apply (b : Fin 2) (h : Fin 16) (s : Fin 2048) (d : Fin 64) :
    val_main_v3 (F := Ideal) x1 (ix4 b h s d) = x1 (ix3 b s (col h d)) := by
  rw [val_main_v3_apply, val_main_v2_apply]
  refine congrArg x1 (funext fun a => Fin.ext ?_)
  obtain ⟨e0, e1, e2⟩ := split_arith b.val h.val s.val d.val b.isLt h.isLt s.isLt d.isLt
  match a with
  | ⟨0, _⟩ => exact e0
  | ⟨1, _⟩ => exact e1
  | ⟨2, _⟩ => exact e2

/-- The values, head in front. -/
theorem v_apply (b : Fin 2) (h : Fin 16) (s : Fin 2048) (d : Fin 64) :
    val_main_v5 (F := Ideal) x2 (ix4 b h s d) = x2 (ix3 b s (col h d)) := by
  rw [val_main_v5_apply, val_main_v4_apply]
  refine congrArg x2 (funext fun a => Fin.ext ?_)
  obtain ⟨e0, e1, e2⟩ := split_arith b.val h.val s.val d.val b.isLt h.isLt s.isLt d.isLt
  match a with
  | ⟨0, _⟩ => exact e0
  | ⟨1, _⟩ => exact e1
  | ⟨2, _⟩ => exact e2

/-! ## The scores -/

/-- The scale, `1 / sqrt 64`, is one eighth at every index. -/
theorem scale_apply (i : S2x16x2048x2048.Idx) : val_main_v9 (F := Ideal) i = Ideal.ofBits .f32 0x3E000000#32 := by
  rw [val_main_v9_apply, val_main_v7_apply, val_main_cst_0_apply, val_main_v6_apply, val_main_cst_apply]
  exact one_div_sqrt_64

/-- The scaled scores are the specification's. -/
theorem score_apply (b : Fin 2) (h : Fin 16) (s t : Fin 2048) :
    val_main_v10 (F := Ideal) x0 x1 (ix4 b h s t) = score x0 x1 b h s t := by
  rw [val_main_v10_apply, val_main_v8_apply, scale_apply, score_eq]
  refine congrArg (· * Ideal.ofBits .f32 0x3E000000#32) (Finset.sum_congr rfl fun d _ => ?_)
  have el : lidx_main_v8 (ix4 b h s t) d = ix4 b h s d :=
    funext fun a => match a with | ⟨0, _⟩ => rfl | ⟨1, _⟩ => rfl | ⟨2, _⟩ => rfl | ⟨3, _⟩ => rfl
  have er : ridx_main_v8 (ix4 b h s t) d = ix4 b h t d :=
    funext fun a => match a with | ⟨0, _⟩ => rfl | ⟨1, _⟩ => rfl | ⟨2, _⟩ => rfl | ⟨3, _⟩ => rfl
  rw [el, er, q_apply, k_apply]

/-! ## The softmax -/

theorem reduces_scores : S2x16x2048x2048.Reduces [3] S2x16x2048 := by decide

/-- The maximum of a row of scores: the fold of `max` from `⊥` over the row. -/
theorem max_apply (b : Fin 2) (h : Fin 16) (s : Fin 2048) :
    val_main_v13 (F := Ideal) x0 x1 (ix3 b h s)
      = (Finset.univ : Finset (Fin 2048)).fold max ⊥ (fun t => score x0 x1 b h s t) := by
  rw [val_main_v13_apply, val_main_v12_apply, val_main_cst_2_apply]
  unfold val_main_v11
  rw [Host.reduce_eq_fold_single FloatOps.maximumf _ _ _ reduces_scores h_S_ (ix3 b h s), val_main_cst_1_apply]
  show max (Ideal.ofBits .f32 0xFF800000#32)
    ((Finset.univ : Finset (Fin 2048)).fold max (Ideal.ofBits .f32 0xFF800000#32)
      (val_main_v10 (F := Ideal) x0 x1 ∘ reduces_scores.lift (ix3 b h s))) = _
  rw [ofBits_neg_inf, max_eq_right bot_le]
  refine congrArg (fun f : Fin 2048 → EReal => (Finset.univ : Finset (Fin 2048)).fold max ⊥ f) (funext fun (t : Fin 2048) => ?_)
  have e : reduces_scores.lift (ix3 b h s) t = ix4 b h s t :=
    funext fun a => match a with
      | ⟨0, _⟩ => Fin.ext rfl | ⟨1, _⟩ => Fin.ext rfl | ⟨2, _⟩ => Fin.ext rfl | ⟨3, _⟩ => Fin.ext rfl
  show val_main_v10 (F := Ideal) x0 x1 (reduces_scores.lift (ix3 b h s) t) = _
  rw [e]
  exact score_apply x0 x1 b h s t

/-- The exponential of a score less its row's maximum. -/
theorem exp_apply (b : Fin 2) (h : Fin 16) (s t : Fin 2048) :
    val_main_v17 (F := Ideal) x0 x1 (ix4 b h s t)
      = Ideal.exp (score x0 x1 b h s t
          - (Finset.univ : Finset (Fin 2048)).fold max ⊥ (fun u => score x0 x1 b h s u)) := by
  rw [val_main_v17_apply, val_main_v16_apply, val_main_v15_apply, val_main_v14_apply, score_apply]
  have e : idx_main_v14 (idx_main_v15 (ix4 b h s t)) = ix3 b h s :=
    funext fun a => match a with | ⟨0, _⟩ => rfl | ⟨1, _⟩ => rfl | ⟨2, _⟩ => rfl
  rw [e, max_apply]
  rfl

/-- A softmax weight. -/
theorem weight_apply (b : Fin 2) (h : Fin 16) (s t : Fin 2048) :
    val_main_v21 (F := Ideal) x0 x1 (ix4 b h s t)
      = Ideal.div
          (Ideal.exp (score x0 x1 b h s t
            - (Finset.univ : Finset (Fin 2048)).fold max ⊥ (fun u => score x0 x1 b h s u)))
          (∑ u : Fin 2048, Ideal.exp (score x0 x1 b h s u
            - (Finset.univ : Finset (Fin 2048)).fold max ⊥ (fun u => score x0 x1 b h s u))) := by
  rw [val_main_v21_apply, val_main_v20_apply, val_main_v19_apply, val_main_v18_apply, val_main_cst_3_apply, exp_apply]
  have e : idx_main_v19 (idx_main_v20 (ix4 b h s t)) = ix3 b h s :=
    funext fun a => match a with | ⟨0, _⟩ => rfl | ⟨1, _⟩ => rfl | ⟨2, _⟩ => rfl
  rw [e]
  show Ideal.div _ (Ideal.ofBits .f32 0x00000000#32 + _) = _
  rw [Ideal.ofBits_zero_f32, zero_add]
  refine congrArg (Ideal.div _) (Finset.sum_congr rfl fun u _ => ?_)
  have eu : idx_main_v18 (ix3 b h s) u = ix4 b h s u :=
    funext fun a => match a with | ⟨0, _⟩ => rfl | ⟨1, _⟩ => rfl | ⟨2, _⟩ => rfl | ⟨3, _⟩ => rfl
  rw [eu, exp_apply]

/-! ## The result -/

/-- The weighted sums of the values, head in front, are the specification's. -/
theorem out_apply (b : Fin 2) (h : Fin 16) (s : Fin 2048) (e : Fin 64) :
    val_main_v22 (F := Ideal) x0 x1 x2 (ix4 b h s e) = attn4 x0 x1 x2 b s h e := by
  rw [val_main_v22_apply]
  unfold attn4 softmaxDot
  refine Finset.sum_congr rfl fun t _ => ?_
  have el : lidx_main_v22 (ix4 b h s e) t = ix4 b h s t :=
    funext fun a => match a with | ⟨0, _⟩ => rfl | ⟨1, _⟩ => rfl | ⟨2, _⟩ => rfl | ⟨3, _⟩ => rfl
  have er : ridx_main_v22 (ix4 b h s e) t = ix4 b h t e :=
    funext fun a => match a with | ⟨0, _⟩ => rfl | ⟨1, _⟩ => rfl | ⟨2, _⟩ => rfl | ⟨3, _⟩ => rfl
  rw [el, er, weight_apply, v_apply]

/-- THE REFERENCE'S RESULT is the specification. -/
theorem result_eq : val_main_v24 (F := Ideal) x0 x1 x2 = attn x0 x1 x2 := by
  funext i
  obtain ⟨b, s, j, rfl⟩ : ∃ (b : Fin 2) (s : Fin 2048) (j : Fin 1024), i = ix3 b s j := ⟨i 0, i 1, i 2, eq_ix3 i⟩
  rw [val_main_v24_apply, val_main_v23_apply]
  have e : idx_main_v23 (idx_main_v24 (ix3 b s j)) = ix4 b (headOf j) s (laneOf j) := by
    obtain ⟨e0, e1, e2, e3⟩ := merge_arith b.val s.val j.val b.isLt s.isLt j.isLt
    funext a
    apply Fin.ext
    match a with
    | ⟨0, _⟩ => exact e0
    | ⟨1, _⟩ => exact e2
    | ⟨2, _⟩ => exact e1
    | ⟨3, _⟩ => exact e3
  rw [e, out_apply]
  rfl

end Cert.ReferenceIdeal.RefValue

end
-- ==== Proof.lean ====
/-
  The five claims about a multi-head scaled dot-product attention kernel and its plain reference.

  Both programs take queries, keys and values of shape `[2, 2048, 1024]`, the minor axis 16 heads of 64 lanes. The
  kernel splits the minor axis by a reshape and runs one region over a grid of (batch, group of 8 heads, block of 256
  query positions); its body computes, head by head, the softmax over all 2048 key positions of the scaled scores and
  the weighted sum of the values, scaling the QUERY entries by the literal one eighth before the inner products. The
  reference moves the head axis in front, takes the inner products, scales the SCORES by `1 / sqrt 64`, and applies the
  same softmax and weighted sum. Over the extended reals the two agree at every index: `1 / sqrt 64` is one eighth,
  and a nonnegative real factor moves across any sum. Neither step uses that the inputs are finite.

  The frames of the two kernel programs are the generated ones; the reference's is its generated run with the result
  dropped. The idealization rewrote nothing, so that claim is trivial. The value claim sets the kernel program's run
  (`Cert.KernelIdeal.Whole.run`) beside the reference's run, both ending at `Cert.AttnSpec.attn` of the arguments.
-/
import proofs.«119856_j56710748176493_2_alg».proof.Defs
import proofs.«119856_j56710748176493_2_alg».proof.Proof.Gen.Kernel
import proofs.«119856_j56710748176493_2_alg».proof.Proof.Gen.Kernel.Skeleton
import proofs.«119856_j56710748176493_2_alg».proof.Proof.Gen.Kernel.Launch
import proofs.«119856_j56710748176493_2_alg».proof.Proof.Gen.Kernel.Points
import proofs.«119856_j56710748176493_2_alg».proof.Proof.Gen.Kernel.Frame
import proofs.«119856_j56710748176493_2_alg».proof.Proof.Gen.KernelIdeal
import proofs.«119856_j56710748176493_2_alg».proof.Proof.Gen.KernelIdeal.Skeleton
import proofs.«119856_j56710748176493_2_alg».proof.Proof.Gen.KernelIdeal.Launch
import proofs.«119856_j56710748176493_2_alg».proof.Proof.Gen.KernelIdeal.Points
import proofs.«119856_j56710748176493_2_alg».proof.Proof.Gen.KernelIdeal.Frame
import proofs.«119856_j56710748176493_2_alg».proof.Proof.Gen.ReferenceIdeal
import proofs.«119856_j56710748176493_2_alg».proof.Proof.Gen.Pre_finite_inputs
import proofs.«119856_j56710748176493_2_alg».proof.Proof.Gen.ReferenceIdeal.Run
import proofs.«119856_j56710748176493_2_alg».proof.Proof.Gen.ReferenceIdeal.Read
import proofs.«119856_j56710748176493_2_alg».proof.Proof.KernelRun
import proofs.«119856_j56710748176493_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts)
    (hPre_finite_inputs := Cert.Pre_finite_inputs.Gen.facts) :=
  fun m ρ _ => Cert.Kernel.Gen.frame m ρ

/-- The idealized kernel program runs and keeps its arguments. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and keeps its arguments: its run, the result dropped. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments both idealized programs end at the attention of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
